-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S1024x1024 : Shape := ⟨2, ![1024, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S65536x1024 .f32) (main_arg1 : FVec F S65536x1024 .f32) (main_arg2 : FVec F S1024 .f32) (main_arg3 : FVec F S1024x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S65536x1024 : Shape := ⟨2, ![65536, 1024]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S512x1024 : Shape := ⟨2, ![512, 1024]⟩

abbrev nBuf : Space → Nat
  | .hbm => 14
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  concatenates_S512x1024_S512x1024_S1024x1024_d0 : Shape.Concatenates [S512x1024, S512x1024] S1024x1024 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S512x1024 : S1024x1024.Slices ![0, 0] S512x1024
  slices_S1024x1024_o512_0_S512x1024 : S1024x1024.Slices ![512, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S65536x1024.size a
  hwx0_1 : ∀ i : grid0.Coords, EltTy.bits .f32 = 32 ∨ (Rect.block (s := S65536x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S65536x1024.size a
  hwx0_4 : ∀ i : grid0.Coords, EltTy.bits .f32 = 32 ∨ (Rect.block (s := S65536x1024) S512x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024x1024, .f32⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  dot_S65536x1024_S1024x1024_S65536x1024_1_1_0_0_n_n_wf : DotDims.WF S65536x1024 S1024x1024 S65536x1024 [1] [1] [0] [0] [] []

variable [Facts₀]

def dot_S65536x1024_S1024x1024_S65536x1024_1_1_0_0_n_n : DotDims S65536x1024 S1024x1024 S65536x1024 where
  lhsContracting := [1]
  rhsContracting := [1]
  lhsNonContracting := [0]
  rhsNonContracting := [0]
  lhsBatch := []
  rhsBatch := []
  wf := dot_S65536x1024_S1024x1024_S65536x1024_1_1_0_0_n_n_wf

class Facts : Prop extends Facts₀ where

variable [Facts]
-- ==== Proof.Finite.lean ====
/-
  Finiteness of the inputs, read out of the precondition.

  The precondition is the conjunction, over the four input arrays, of "every entry's absolute value is below +∞".
  On the extended reals `max x (−x) < ⊤` excludes exactly `⊤` and `⊥`, so every entry of every input is a real number.
-/
import proofs.«150343_j26603027431567_2_alg».proof.Pre_finite_inputs
import Idealize.ShloMosaic.PureOps.Ideal
import Idealize.ShloMosaic.Lib.ReduceAll
import Idealize.ShloMosaic.Lib.ValueIdx

noncomputable section

namespace Cert.Langevin.Finite

open Idealize.ShloMosaic Cert.Pre_finite_inputs

/-- The scalar shape has a single index. -/
instance : Subsingleton S_.Idx := ⟨fun _ _ => funext fun d => d.elim0⟩

/-- An extended real whose absolute value is below the pattern of +∞ is a real number. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- Under the precondition every entry of the phases, the noise, the frequencies and the couplings is a real number. -/
theorem finite_of_pre [Facts] (a0 a1 : FVec Ideal S65536x1024 .f32) (a2 : FVec Ideal S1024 .f32)
    (a3 : FVec Ideal S1024x1024 .f32) (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

end Cert.Langevin.Finite

end
-- ==== Proof.Law.lean ====
/-
  The mathematics of one Euler–Maruyama step of the Kuramoto oscillators, independent of any program.

  One row of phases `θ` (a batch element), natural frequencies `ω`, couplings `K`, step `d`, noise `n`.
  With `s = sin θ`, `c = cos θ` the all-pairs coupling of oscillator `i` is
  `c i · Σ_k s k · K i k − s i · Σ_k c k · K i k`  (the addition formula for `sin (θ k − θ i)`).

  Two arrangements of the same update are compared:
  * the SCALED-COUPLING form: the step is folded into the couplings and the frequencies beforehand,
    `((θ i + ω i · d) + (c i · Σ_k s k · (K i k · d) − s i · Σ_k c k · (K i k · d))) + n i · d`;
  * the PLAIN form: the drift is formed first and scaled once,
    `(θ i + (ω i + (c i · Σ_k s k · K i k − s i · Σ_k c k · K i k)) · d) + n i · d`.
  Over the reals they agree by distributivity: `Σ_k s k · (K i k · d) = (Σ_k s k · K i k) · d`. On the extended
  reals distributivity fails at the infinities, so the law is stated for FINITE phases, frequencies, couplings and
  step (the noise term is the same summand on both sides and may be anything).
-/
import Idealize.ShloMosaic.PureOps.Ideal
import Idealize.ShloMosaic.Lib.ValueIdx

noncomputable section

namespace Cert.Langevin

open Idealize.ShloMosaic Idealize.ShloMosaic.ValueIdx

/-- A finite sum of real numbers, each read as an extended real, is the real sum read as an extended real. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The law over the reals: scaling every coupling by the step, and the frequency by the step, is scaling the drift. -/
theorem real_law {ι : Type*} [Fintype ι] (s c K : ι → ℝ) (ti wi si ci d : ℝ) :
    (ti + wi * d) + (ci * ∑ k, s k * (K k * d) - si * ∑ k, c k * (K k * d))
      = ti + (wi + (ci * ∑ k, s k * K k - si * ∑ k, c k * K k)) * d := by
  have hs : ∑ k, s k * (K k * d) = (∑ k, s k * K k) * d := by
    rw [Finset.sum_mul]; exact Finset.sum_congr rfl fun k _ => (mul_assoc _ _ _).symm
  have hc : ∑ k, c k * (K k * d) = (∑ k, c k * K k) * d := by
    rw [Finset.sum_mul]; exact Finset.sum_congr rfl fun k _ => (mul_assoc _ _ _).symm
  rw [hs, hc]; ring

/-- The law on the extended reals, for one oscillator of one row: finite phases `t`, finite couplings `K` of this
    oscillator, finite frequency `wi` and step `d`; `x` is the common noise summand. -/
theorem entry_law {ι : Type*} [Fintype ι] (t K : ι → ℝ) (i : ι) (wi d : ℝ) (x : EReal) :
    (((t i : EReal) + (wi : EReal) * (d : EReal))
        + (Ideal.cos (t i : EReal) * ∑ k, Ideal.sin (t k : EReal) * ((K k : EReal) * (d : EReal))
          - Ideal.sin (t i : EReal) * ∑ k, Ideal.cos (t k : EReal) * ((K k : EReal) * (d : EReal)))) + x
      = ((t i : EReal) + ((wi : EReal)
          + (Ideal.cos (t i : EReal) * ∑ k, Ideal.sin (t k : EReal) * (K k : EReal)
            - Ideal.sin (t i : EReal) * ∑ k, Ideal.cos (t k : EReal) * (K k : EReal))) * (d : EReal)) + x := by
  simp only [Ideal.sin_coe, Ideal.cos_coe, ← EReal.coe_mul, coe_sum, ← EReal.coe_sub, ← EReal.coe_add]
  rw [real_law]

end Cert.Langevin

end
-- ==== Proof.Spec.lean ====
/-
  The result array of one Langevin step as ONE function of the four argument arrays, in its two arrangements.

  Arrays: phases `θ` and noise `n` of shape [65536, 1024] (batch × oscillators), frequencies `ω` [1024], couplings
  `K` [1024, 1024]; `d` is the step (it also scales the noise). Entry `(b, i)` depends on row `b` of `θ`, row `i` of `K`,
  `ω i` and `n (b, i)`.
  `scaledEntry` folds the step into the couplings and the frequencies first; `plainEntry` scales the drift once.
  For finite `θ`, `ω`, `K`, `d` the two agree entry by entry (`Cert.Langevin.entry_law`).
-/
import proofs.«150343_j26603027431567_2_alg».proof.Proof.Law

noncomputable section

namespace Cert.Langevin

open Idealize.ShloMosaic Idealize.ShloMosaic.ValueIdx

/-- Matrices and vectors of extended reals over literal extents. -/
abbrev Mat (a b : Nat) : Type := (⟨2, ![a, b]⟩ : Shape).Idx → EReal
abbrev Vct (a : Nat) : Type := (⟨1, ![a]⟩ : Shape).Idx → EReal

/-- Entry `(b, i)` with the step folded into couplings and frequencies. -/
def scaledEntry (d : EReal) (θ n : Mat 65536 1024) (ω : Vct 1024) (K : Mat 1024 1024) (b : Fin 65536) (i : Fin 1024) : EReal :=
  ((θ (ix2 b i) + ω (ix1 i) * d)
    + (Ideal.cos (θ (ix2 b i)) * ∑ k : Fin 1024, Ideal.sin (θ (ix2 b k)) * (K (ix2 i k) * d)
      - Ideal.sin (θ (ix2 b i)) * ∑ k : Fin 1024, Ideal.cos (θ (ix2 b k)) * (K (ix2 i k) * d)))
    + n (ix2 b i) * d

/-- Entry `(b, i)` with the drift scaled once. -/
def plainEntry (d : EReal) (θ n : Mat 65536 1024) (ω : Vct 1024) (K : Mat 1024 1024) (b : Fin 65536) (i : Fin 1024) : EReal :=
  (θ (ix2 b i) + (ω (ix1 i)
      + (Ideal.cos (θ (ix2 b i)) * ∑ k : Fin 1024, Ideal.sin (θ (ix2 b k)) * K (ix2 i k)
        - Ideal.sin (θ (ix2 b i)) * ∑ k : Fin 1024, Ideal.cos (θ (ix2 b k)) * K (ix2 i k))) * d)
    + n (ix2 b i) * d

/-- The whole arrays. -/
def scaledForm (d : EReal) (θ n : Mat 65536 1024) (ω : Vct 1024) (K : Mat 1024 1024) : Mat 65536 1024 :=
  fun j => scaledEntry d θ n ω K (j 0) (j 1)
def plainForm (d : EReal) (θ n : Mat 65536 1024) (ω : Vct 1024) (K : Mat 1024 1024) : Mat 65536 1024 :=
  fun j => plainEntry d θ n ω K (j 0) (j 1)

/-- The step, the f32 nearest 0.01, is a real number. -/
theorem step_real : ∃ r : ℝ, Ideal.ofBits .f32 0x3C23D70A#32 = (r : EReal) := by
  simp [Ideal.ofBits, Ideal.ieee]
  exact ⟨_, (EReal.coe_mul _ _).symm⟩

/-- For finite phases, frequencies, couplings and step the two arrangements are the same array. -/
theorem scaledForm_eq_plainForm (d : EReal) (θ n : Mat 65536 1024) (ω : Vct 1024) (K : Mat 1024 1024)
    (hd : ∃ r : ℝ, d = r) (hθ : ∀ j, ∃ r : ℝ, θ j = r) (hω : ∀ j, ∃ r : ℝ, ω j = r) (hK : ∀ j, ∃ r : ℝ, K j = r) :
    scaledForm d θ n ω K = plainForm d θ n ω K := by
  obtain ⟨dr, rfl⟩ := hd
  choose θr hθr using hθ
  choose ωr hωr using hω
  choose Kr hKr using hK
  funext j
  unfold scaledForm plainForm scaledEntry plainEntry
  simp only [hθr, hωr, hKr]
  exact entry_law (ι := Fin 1024) (fun k => θr (ix2 (j 0) k)) (fun k => Kr (ix2 (j 1) k)) (j 1) (ωr (ix1 (j 1))) dr _

end Cert.Langevin

end
-- ==== Proof.RefRead.lean ====
/-
  The reference program's result, read entry by entry: it is the PLAIN arrangement of the step.

  The reference forms `sin θ` and `cos θ`, contracts each against the couplings over the oscillator axis
  (entry `(b, i)` of the product sums `sin θ (b, k) · K (i, k)` over `k`), combines them into the all-pairs coupling, adds the
  frequencies laid along every row, scales the drift by the step, and adds the phases and the scaled noise.
-/
import proofs.«150343_j26603027431567_2_alg».proof.Proof.Gen.ReferenceIdeal.Read
import proofs.«150343_j26603027431567_2_alg».proof.Proof.Spec

noncomputable section

namespace Cert.Langevin.RefValue

open Idealize.ShloMosaic Idealize.ShloMosaic.ValueIdx Cert.ReferenceIdeal Cert.ReferenceIdeal.Read Cert.Langevin

/-- The reference's last stage is the plain arrangement of the four arguments. -/
theorem reference_eq_plainForm (x0 x1 : FVec Ideal S65536x1024 .f32) (x2 : FVec Ideal S1024 .f32) (x3 : FVec Ideal S1024x1024 .f32) :
    val_main_v15 (F := Ideal) x0 x1 x2 x3 = plainForm (Ideal.ofBits .f32 0x3C23D70A#32) x0 x1 x2 x3 := by
  funext j
  obtain ⟨b, i, rfl⟩ : ∃ (b : Fin 65536) (i : Fin 1024), j = ix2 b i := ⟨j 0, j 1, eq_ix2 j⟩
  have el2 : ∀ k : Fin 1024, lidx_main_v2 (ix2 b i) k = ix2 b k := fun k =>
    funext fun a => Fin.ext (by match a with | ⟨0, _⟩ => rfl | ⟨1, _⟩ => rfl)
  have er2 : ∀ k : Fin 1024, ridx_main_v2 (ix2 b i) k = ix2 i k := fun k =>
    funext fun a => Fin.ext (by match a with | ⟨0, _⟩ => rfl | ⟨1, _⟩ => rfl)
  have el3 : ∀ k : Fin 1024, lidx_main_v3 (ix2 b i) k = ix2 b k := fun k =>
    funext fun a => Fin.ext (by match a with | ⟨0, _⟩ => rfl | ⟨1, _⟩ => rfl)
  have er3 : ∀ k : Fin 1024, ridx_main_v3 (ix2 b i) k = ix2 i k := fun k =>
    funext fun a => Fin.ext (by match a with | ⟨0, _⟩ => rfl | ⟨1, _⟩ => rfl)
  have ew : idx_main_v7 (idx_main_v8 (ix2 b i)) = ix1 i :=
    funext fun a => Fin.ext (by match a with | ⟨0, _⟩ => rfl)
  rw [val_main_v15_apply, val_main_v12_apply, val_main_v14_apply, val_main_v13_apply, val_main_cst_0_apply,
    val_main_v11_apply, val_main_v10_apply, val_main_cst_apply, val_main_v9_apply, val_main_v8_apply, val_main_v7_apply,
    val_main_v6_apply, val_main_v4_apply, val_main_v5_apply, val_main_v2_apply, val_main_v3_apply, val_main_v0_apply,
    val_main_v1_apply]
  simp only [val_main_v0_apply, val_main_v1_apply, el2, er2, el3, er3, ew, Ideal.addf_def, Ideal.mulf_def, Ideal.subf_def,
    Ideal.hostUnary_sin_def, Ideal.hostUnary_cos_def, Ideal.ofBits_def]
  rfl

end Cert.Langevin.RefValue

end
-- ==== Proof.Windows.lean ====
/-
  What the kernel's four input windows hold at a grid point, in terms of the argument arrays.

  The grid has 128 points; point `t` works on rows `512·t … 512·t + 511` of the phases and of the noise (windows 0 and 1),
  and at every point on the whole of two arrays prepared before the launch (windows 2 and 3):
  * the frequencies scaled by the step, as one row [1, 1024]: entry `(0, q)` is `ω q · step`;
  * the couplings scaled by the step and TRANSPOSED: entry `(k, q)` is `K (q, k) · step`.
-/
import proofs.«150343_j26603027431567_2_alg».proof.Proof.Gen.KernelIdeal.Frame
import Idealize.ShloMosaic.Lib.Pipeline.Value
import Idealize.ShloMosaic.Lib.ValueIdx
import Idealize.ShloMosaic.Lib.StableHlo.Run

noncomputable section

namespace Cert.Langevin.Windows

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- A grid point's number is below 128. -/
theorem lt128 (t : Fin cfg0.N) : t.val < 128 := lt_of_lt_of_eq t.isLt N_0

/-- The four argument arrays on a device, as arrays of extended reals: phases, noise, frequencies, couplings. -/
abbrev phases (c : Dev nD) : S65536x1024.Idx → EReal := m ((c : Thread nD τ).loc main_arg0)
abbrev noise (c : Dev nD) : S65536x1024.Idx → EReal := m ((c : Thread nD τ).loc main_arg1)
abbrev freqs (c : Dev nD) : S1024.Idx → EReal := m ((c : Thread nD τ).loc main_arg2)
abbrev coups (c : Dev nD) : S1024x1024.Idx → EReal := m ((c : Thread nD τ).loc main_arg3)
/-- The two arrays prepared before the launch, as the launch finds them. -/
abbrev coupsT (c : Dev nD) : S1024x1024.Idx → EReal := V m c main_v3
abbrev freqRow (c : Dev nD) : S1x1024.Idx → EReal := V m c main_v6

/-- The block indices of the five windows at point `t`: phases, noise and result move down the rows with `t`, the two
    prepared arrays stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The two arrays prepared before the launch -/

/-- The scaled, transposed couplings at `(k, q)`. -/
theorem couplings_apply (c : Dev nD) (k q : Fin 1024) :
    coupsT m c (ix2 k q) = coups m c (ix2 q k) * Ideal.ofBits .f32 0x3C23D70A#32 := by
  have e : (V m c main_v3 : S1024x1024.Idx → EReal)
      = truncf .bf16 (transpose S1024x1024 [1, 0]
          (mulf (m ((c : Thread nD τ).loc main_arg3))
            (broadcastInDim S1024x1024 ![] Facts₀.bcast_S_S1024x1024 (constant (F := Ideal) S_ .f32 0x3C23D70A#32)))
          Facts₀.transposes_S1024x1024_S1024x1024_1_0) Facts₀.bitsLt_bf16_f32 := by
    dsimp only [Gen.V, Gen.hostOps0]; after_results
  unfold coupsT
  rw [e]
  rw [truncf_apply]
  rw [transpose_apply [1, 0] _ _ (ix2 k q) (ix2 q k) (fun b => by
    match b with
    | ⟨0, _⟩ => rfl
    | ⟨1, _⟩ => rfl)]
  rw [mulf_apply, broadcastInDim_apply _ _ _ (ix2 q k) ix0 (fun a => a.elim0)]
  rfl

/-- The scaled frequencies, as one row, at `(0, q)`. -/
theorem frequencies_apply (c : Dev nD) (q : Fin 1024) :
    freqRow m c (ix2 (0 : Fin 1) q) = freqs m c (ix1 q) * Ideal.ofBits .f32 0x3C23D70A#32 := by
  have e : (V m c main_v6 : S1x1024.Idx → EReal)
      = shapeCast S1x1024
          (mulf (m ((c : Thread nD τ).loc main_arg2))
            (broadcastInDim S1024 ![] Facts₀.bcast_S_S1024 (constant (F := Ideal) S_ .f32 0x3C23D70A#32)))
          Facts₀.shapeCasts_S1024_S1x1024 := by
    dsimp only [Gen.V, Gen.hostOps0]; after_results; rfl
  unfold freqRow
  rw [e]
  rw [shapeCast_apply _ _ (ix2 (0 : Fin 1) q) (ix1 q) (by
    rw [Shape.rowMajor_val_one, Shape.rowMajor_val_two]
    show q.val = 0 * 1024 + q.val
    omega)]
  rw [mulf_apply, broadcastInDim_apply _ _ _ (ix1 q) ix0 (fun a => a.elim0)]
  rfl

/-! ## The windows' blocks at a point -/

/-- Window 0's block at point `t`: rows `512·t …` of the phases. -/
theorem iblk_phases (c : Dev nD) (t : Fin cfg0.N) (p : Fin 512) (k : Fin 1024) :
    (iblk m c 0 t : Vec Ideal S512x1024 .f32) (ix2 p k)
      = phases m c (ix2 (⟨t.val * 512 + p.val, by have := lt128 t; omega⟩ : Fin 65536) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

/-- Window 1's block at point `t`: the same rows of the noise. -/
theorem iblk_noise (c : Dev nD) (t : Fin cfg0.N) (p : Fin 512) (k : Fin 1024) :
    (iblk m c 1 t : Vec Ideal S512x1024 .f32) (ix2 p k)
      = noise m c (ix2 (⟨t.val * 512 + p.val, by have := lt128 t; omega⟩ : Fin 65536) k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * p.val = t.val * 512 + p.val; rw [e0]; omega
  | ⟨1, _⟩ => show win0_1.index t (1 : Fin 2) * 1024 + 1 * k.val = k.val; rw [e1]; omega

/-- Window 2's block at any point is the whole row of scaled frequencies. -/
theorem iblk_frequencies (c : Dev nD) (t : Fin cfg0.N) (q : Fin 1024) :
    (iblk m c 2 t : Vec Ideal S1x1024 .f32) (ix2 (0 : Fin 1) q)
      = freqs m c (ix1 q) * Ideal.ofBits .f32 0x3C23D70A#32 := by
  obtain ⟨-, -, -, -, e0, e1, -⟩ := idx_facts t
  rw [← frequencies_apply m c q]
  unfold iblk
  rw [View.read_apply]
  show V m c main_v6 _ = V m c main_v6 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = q.val; rw [e1]; omega

/-- Window 3's block at any point is the whole matrix of scaled, transposed couplings. -/
theorem iblk_couplings (c : Dev nD) (t : Fin cfg0.N) (k q : Fin 1024) :
    (iblk m c 3 t : Vec Ideal S1024x1024 .bf16) (ix2 k q)
      = coups m c (ix2 q k) * Ideal.ofBits .f32 0x3C23D70A#32 := by
  obtain ⟨-, -, -, -, -, -, e0, e1, -⟩ := idx_facts t
  rw [← couplings_apply m c k q]
  unfold iblk
  rw [View.read_apply]
  show V m c main_v3 _ = V m c main_v3 _
  congr 1
  funext a
  apply Fin.ext
  match a with
  | ⟨0, _⟩ => show win0_3.index t (0 : Fin 2) * 1024 + 1 * k.val = k.val; rw [e0]; omega
  | ⟨1, _⟩ => show win0_3.index t (1 : Fin 2) * 1024 + 1 * q.val = q.val; rw [e1]; omega

end Cert.Langevin.Windows

end
-- ==== Proof.Payload.lean ====
/-
  The kernel body's arithmetic at one entry of a block.

  A block holds 512 rows (batch elements) of phases `x` and noise `z`, the whole pre-scaled transposed coupling matrix
  `W` ([1024, 1024], entry `(k, q)` couples oscillator `q` to oscillator `k`) and the pre-scaled frequencies `u` as one row.
  The body stacks `sin x` on top of `cos x` into one [1024, 1024] matrix, multiplies it by `W` once, and cuts the product back
  into its upper half (`sin x · W`) and lower half (`cos x · W`): row `p` of the upper half is the contraction of
  row `p` of `sin x` with `W`, row `p` of the lower half (row `512 + p` of the product) that of `cos x`. Entry `(p, q)` of
  what is stored is then
  `((x + u) + (cos x · Σ_k sin x (p,k) · W (k,q) − sin x · Σ_k cos x (p,k) · W (k,q))) + z · step`.
-/
import proofs.«150343_j26603027431567_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Langevin.Body

open Idealize.ShloMosaic Idealize.ShloMosaic.ValueIdx Cert.KernelIdeal
open Cert.KernelIdeal.Gen (k0_pay1)
open Cert.KernelIdeal.Facts₀

/-- The left operand's row coordinate is the output's row coordinate, -/
theorem lhs_row (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- and the right operand's column coordinate the output's column coordinate. -/
theorem rhs_col (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- A [1024, 1024] × [1024, 1024] product into a zero accumulator, at entry `(r, q)`: the sum over `k` of
    `L (r, k) · R (k, q)`. -/
theorem product_apply (L R : FVec Ideal S1024x1024 .bf16) (r q : Fin 1024) :
    matmul dot_S1024x1024_S1024x1024_S1024x1024_1_0_0_1_n_n none L R (constant (F := Ideal) S1024x1024 .f32 0x00000000#32) (ix2 r q)
      = ∑ k : Fin 1024, L (ix2 r k) * R (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r q)
      ((contrEquiv1 dot_S1024x1024_S1024x1024_S1024x1024_1_0_0_1_n_n 1024 rfl rfl).symm k) = ix2 r k :=
    funext fun a => Fin.ext (by
      match a with
      | ⟨0, _⟩ => exact lhs_row _ _
      | ⟨1, _⟩ =>
        exact (dot_S1024x1024_S1024x1024_S1024x1024_1_0_0_1_n_n.lhsIdx_val_of_single (cl := 1) rfl _ _).trans hk)
  have er : dot_S1024x1024_S1024x1024_S1024x1024_1_0_0_1_n_n.rhsIdx (ix2 r q)
      ((contrEquiv1 dot_S1024x1024_S1024x1024_S1024x1024_1_0_0_1_n_n 1024 rfl rfl).symm k) = ix2 k q :=
    funext fun a => Fin.ext (by
      match a with
      | ⟨0, _⟩ =>
        exact (dot_S1024x1024_S1024x1024_S1024x1024_1_0_0_1_n_n.rhsIdx_val_of_single (cr := 0) rfl _ _).trans hk
      | ⟨1, _⟩ => exact rhs_col _ _)
  rw [el, er]

variable {α : Type}

/-- Row `p` of two [512, 1024] matrices stacked along the rows is row `p` of the first. -/
theorem stack_upper (A B : S512x1024.Idx → α) (p : Fin 512) (k : Fin 1024) :
    concatenate S1024x1024 0 [⟨S512x1024, A⟩, ⟨S512x1024, B⟩] concatenates_S512x1024_S512x1024_S1024x1024_d0
        (ix2 (⟨p.val, by omega⟩ : Fin 1024) k) = A (ix2 p k) :=
  concatenate_pair_apply_left (0 : Fin S1024x1024.rank) A B _ _ rfl (ix2 p k) (fun b => by
    match b with
    | ⟨0, _⟩ => rfl
    | ⟨1, _⟩ => rfl)

/-- Row `512 + p` of the stack is row `p` of the second. -/
theorem stack_lower (A B : S512x1024.Idx → α) (p : Fin 512) (k : Fin 1024) :
    concatenate S1024x1024 0 [⟨S512x1024, A⟩, ⟨S512x1024, B⟩] concatenates_S512x1024_S512x1024_S1024x1024_d0
        (ix2 (⟨512 + p.val, by omega⟩ : Fin 1024) k) = B (ix2 p k) :=
  concatenate_pair_apply_right (0 : Fin S1024x1024.rank) A B _ _ rfl rfl (ix2 p k) (fun b hb => by
    match b with
    | ⟨0, _⟩ => exact absurd rfl hb
    | ⟨1, _⟩ => rfl) (by show p.val + 512 = 512 + p.val; omega)

/-- The upper half of the product of the stack with `W`, at `(p, q)`: row `p` of the first matrix contracted with column `q`. -/
theorem upper_apply (A B : FVec Ideal S512x1024 .bf16) (W : FVec Ideal S1024x1024 .bf16) (p : Fin 512) (q : Fin 1024) :
    extractStridedSlice S512x1024 ![0, 0]
        (matmul dot_S1024x1024_S1024x1024_S1024x1024_1_0_0_1_n_n none
          (concatenate S1024x1024 0 [⟨S512x1024, A⟩, ⟨S512x1024, B⟩] concatenates_S512x1024_S512x1024_S1024x1024_d0)
          (shapeCast S1024x1024 W shapeCasts_S1024x1024_S1024x1024) (constant (F := Ideal) S1024x1024 .f32 0x00000000#32))
        slices_S1024x1024_o0_0_S512x1024 (ix2 p q)
      = ∑ k : Fin 1024, A (ix2 p k) * W (ix2 k q) := by
  rw [extractStridedSlice_apply _ _ _ (ix2 p q) (ix2 (⟨p.val, by omega⟩ : Fin 1024) q) (fun a => by
    match a with
    | ⟨0, _⟩ => show p.val = 0 + p.val; omega
    | ⟨1, _⟩ => show q.val = 0 + q.val; omega)]
  rw [product_apply, shapeCast_self]
  exact Finset.sum_congr rfl fun k _ => by rw [stack_upper]

/-- The lower half of the product, at `(p, q)`: row `p` of the second matrix contracted with column `q`. -/
theorem lower_apply (A B : FVec Ideal S512x1024 .bf16) (W : FVec Ideal S1024x1024 .bf16) (p : Fin 512) (q : Fin 1024) :
    extractStridedSlice S512x1024 ![512, 0]
        (matmul dot_S1024x1024_S1024x1024_S1024x1024_1_0_0_1_n_n none
          (concatenate S1024x1024 0 [⟨S512x1024, A⟩, ⟨S512x1024, B⟩] concatenates_S512x1024_S512x1024_S1024x1024_d0)
          (shapeCast S1024x1024 W shapeCasts_S1024x1024_S1024x1024) (constant (F := Ideal) S1024x1024 .f32 0x00000000#32))
        slices_S1024x1024_o512_0_S512x1024 (ix2 p q)
      = ∑ k : Fin 1024, B (ix2 p k) * W (ix2 k q) := by
  rw [extractStridedSlice_apply _ _ _ (ix2 p q) (ix2 (⟨512 + p.val, by omega⟩ : Fin 1024) q) (fun a => by
    match a with
    | ⟨0, _⟩ => show 512 + p.val = 512 + p.val; rfl
    | ⟨1, _⟩ => show q.val = 0 + q.val; omega)]
  rw [product_apply, shapeCast_self]
  exact Finset.sum_congr rfl fun k _ => by rw [stack_lower]

/-- The one-row frequencies laid along every row of the block, at `(p, q)`: the row's entry `q`. -/
theorem row_apply (u : S1x1024.Idx → α) (p : Fin 512) (q : Fin 1024) :
    broadcastTo S512x1024 (shapeCast S1x1024 u shapeCasts_S1x1024_S1x1024) broadcasts_S1x1024_S512x1024 (ix2 p q)
      = u (ix2 (0 : Fin 1) q) := by
  rw [shapeCast_self]
  exact broadcastTo_apply u _ (ix2 p q) (ix2 (0 : Fin 1) q) (fun a => by
    match a with
    | ⟨0, _⟩ => rfl
    | ⟨1, _⟩ => rfl)

/-- The stored value at entry `(p, q)` of the block. -/
theorem pay_apply (x : Vec Ideal S512x1024 .f32) (W : Vec Ideal S1024x1024 .bf16) (u : Vec Ideal S1x1024 .f32)
    (z : Vec Ideal S512x1024 .f32) (p : Fin 512) (q : Fin 1024) :
    k0_pay1 (F := Ideal) x W u z (ix2 p q)
      = (((x (ix2 p q) : EReal) + u (ix2 (0 : Fin 1) q))
          + (Ideal.cos (x (ix2 p q)) * ∑ k : Fin 1024, Ideal.sin (x (ix2 p k)) * W (ix2 k q)
            - Ideal.sin (x (ix2 p q)) * ∑ k : Fin 1024, Ideal.cos (x (ix2 p k)) * W (ix2 k q)))
        + z (ix2 p q) * Ideal.ofBits .f32 0x3C23D70A#32 := by
  unfold k0_pay1
  simp only [addf_apply, subf_apply, mulf_apply, broadcast_apply]
  rw [row_apply, upper_apply, lower_apply]
  rfl

end Cert.Langevin.Body

end
-- ==== Proof.BlockEntry.lean ====
/-
  One grid point's block of the result is a block of the SCALED-COUPLING arrangement of the whole arrays.

  Suppose a block's inputs are what the launch gives the body at point `T`: `x` and `z` rows `512·T …` of the phases `θ` and the
  noise `n`, `W (k, q) = K (q, k) · step` and `u (0, q) = ω q · step`. Then entry `(p, q)` of what the body stores is entry
  `(512·T + p, q)` of `scaledEntry`: the sums over `k` of `sin x (p,k) · W (k,q)` are the sums of
  `sin θ (512·T+p, k) · (K (q,k) · step)`, term by term.
-/
import proofs.«150343_j26603027431567_2_alg».proof.Proof.Payload
import proofs.«150343_j26603027431567_2_alg».proof.Proof.Spec

noncomputable section

namespace Cert.Langevin.Body

open Idealize.ShloMosaic Idealize.ShloMosaic.ValueIdx Cert.KernelIdeal Cert.Langevin
open Cert.KernelIdeal.Gen (k0_pay1)

theorem block_entry (θ n : Mat 65536 1024) (ω : Vct 1024) (K : Mat 1024 1024)
    (x z : Vec Ideal S512x1024 .f32) (W : Vec Ideal S1024x1024 .bf16) (u : Vec Ideal S1x1024 .f32)
    (T : Nat) (hT : T < 128)
    (hx : ∀ (p : Fin 512) (k : Fin 1024), x (ix2 p k) = θ (ix2 (⟨T * 512 + p.val, by omega⟩ : Fin 65536) k))
    (hz : ∀ (p : Fin 512) (k : Fin 1024), z (ix2 p k) = n (ix2 (⟨T * 512 + p.val, by omega⟩ : Fin 65536) k))
    (hW : ∀ k q : Fin 1024, W (ix2 k q) = K (ix2 q k) * Ideal.ofBits .f32 0x3C23D70A#32)
    (hu : ∀ q : Fin 1024, u (ix2 (0 : Fin 1) q) = ω (ix1 q) * Ideal.ofBits .f32 0x3C23D70A#32)
    (y : S512x1024.Idx) :
    k0_pay1 (F := Ideal) x W u z y
      = scaledEntry (Ideal.ofBits .f32 0x3C23D70A#32) θ n ω K
          (⟨T * 512 + (y 0).val, by have := idx2_lt0 y; omega⟩ : Fin 65536) (y 1) := by
  obtain ⟨p, q, rfl⟩ : ∃ (p : Fin 512) (q : Fin 1024), y = ix2 p q := ⟨y 0, y 1, eq_ix2 y⟩
  rw [pay_apply, hx, hz, hu]
  simp only [hx, hW]
  rfl

end Cert.Langevin.Body

end
-- ==== Proof.Final.lean ====
/-
  The kernel's result array after the run is the SCALED-COUPLING arrangement of the argument arrays.

  Grid point `t` writes back block `t` of the result: rows `512·t … 512·t + 511`, all 1024 columns. What it writes is, entry by
  entry, the body's arithmetic of the point's input blocks (the generated value leg), which is the corresponding entry of
  `scaledForm` of the whole arrays (`Body.block_entry` with the windows' contents of `Windows`). Row `r` of the result lies in
  the block of point `r / 512`, so the 128 blocks cover the array and the array IS `scaledForm`.
-/
import proofs.«150343_j26603027431567_2_alg».proof.Proof.Gen.KernelIdeal.Value
import proofs.«150343_j26603027431567_2_alg».proof.Proof.Windows
import proofs.«150343_j26603027431567_2_alg».proof.Proof.BlockEntry

noncomputable section

namespace Cert.Langevin.Final

open Idealize.ShloMosaic Idealize.ShloMosaic.ValueIdx Idealize.ShloMosaic.TcCoe Idealize.SL.Sem
open Idealize.ShloMosaic.Pipeline (Dat)
open Cert.KernelIdeal Cert.KernelIdeal.Gen Cert.Langevin Cert.Langevin.Windows

variable (m : (ℓ : Loc nD τ sig) → Buf (Elt Ideal) ℓ) (ρ : Dev nD → PrngReg)

theorem zero_offsets : (![0, 0] : Fin 2 → Nat) = fun _ => 0 := funext fun a => by fin_cases a <;> rfl

/-- The result array as one function of the four argument arrays on device `c`. -/
abbrev result (c : Dev nD) : S65536x1024.Idx → EReal :=
  scaledForm (Ideal.ofBits .f32 0x3C23D70A#32) (phases m c) (noise m c) (freqs m c) (coups m c)

/-- The body's value at point `t`, entry `y` of its block: the entry of the scaled arrangement in row `512·t + y₀`. -/
theorem point_entry (c : Dev nD) (t : Fin cfg0.N) (y : S512x1024.Idx) :
    k0_pay1 (F := Ideal) (iblk m c 0 t : Vec Ideal S512x1024 .f32) (iblk m c 3 t : Vec Ideal S1024x1024 .bf16)
        (iblk m c 2 t : Vec Ideal S1x1024 .f32) (iblk m c 1 t : Vec Ideal S512x1024 .f32) y
      = scaledEntry (Ideal.ofBits .f32 0x3C23D70A#32) (phases m c) (noise m c) (freqs m c) (coups m c)
          (⟨t.val * 512 + (y 0).val, by have := idx2_lt0 y; have := lt128 t; omega⟩ : Fin 65536) (y 1) :=
  Body.block_entry (phases m c) (noise m c) (freqs m c) (coups m c)
    (iblk m c 0 t : Vec Ideal S512x1024 .f32) (iblk m c 1 t : Vec Ideal S512x1024 .f32)
    (iblk m c 3 t : Vec Ideal S1024x1024 .bf16) (iblk m c 2 t : Vec Ideal S1x1024 .f32) t.val (lt128 t)
    (iblk_phases m c t) (iblk_noise m c t) (iblk_couplings m c t) (iblk_frequencies m c t) y

/-- What point `t` writes back is block `t` of `result`. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero_offsets]
  simp only [View.ld_unit_zero (S := S512x1024) zero_offsets, View.ld_unit_zero (S := S1024x1024) zero_offsets,
    View.ld_unit_zero (S := S1x1024) zero_offsets]
  obtain ⟨-, -, -, -, -, -, -, -, e0, e1⟩ := idx_facts t
  funext y
  show k0_pay1 (F := Ideal) (iblk m c 0 t) (iblk m c 3 t) (iblk m c 2 t) (iblk m c 1 t) y
      = scaledEntry (Ideal.ofBits .f32 0x3C23D70A#32) (phases m c) (noise m c) (freqs m c) (coups m c)
          ((((cfg0.win 4).blk t).view.emb y) 0) ((((cfg0.win 4).blk t).view.emb y) 1)
  refine (point_entry m c t y).trans (congrArg₂ (scaledEntry _ _ _ _ _) (Fin.ext ?_) (Fin.ext ?_))
  · show t.val * 512 + (y 0).val = win0_4.index t (0 : Fin 2) * 512 + 1 * (y 0).val
    rw [e0]; omega
  · show (y 1).val = win0_4.index t (1 : Fin 2) * 1024 + 1 * (y 1).val
    rw [e1]; omega

/-- An index of the result is in point `t`'s block iff each coordinate is in the block's range on its axis. -/
theorem mem_blk (t : Fin cfg0.N) (i : S65536x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v7).slice (win0_4.rect t)).set ↔ _
  rw [View.set_slice_whole, Rect.mem_set_unit]
  exact Iff.rfl

/-- Every index of the result is in the block of the point its row falls to. -/
theorem cover (i : S65536x1024.Idx) :
    ∃ t : Fin cfg0.N, (cfg0.win 4).flush t = true ∧ i ∈ ((cfg0.win 4).blk t).view.set := by
  have hi0 : (i 0).val < 65536 := idx2_lt0 i
  have hi1 : (i 1).val < 1024 := idx2_lt1 i
  have hN : cfg0.N = 128 := N_0
  refine ⟨⟨(i 0).val / 512, by rw [hN]; omega⟩, flush0_4 _, ?_⟩
  obtain ⟨-, -, -, -, -, -, -, -, e0, e1⟩ := idx_facts ⟨(i 0).val / 512, by rw [hN]; omega⟩
  rw [mem_blk]
  intro a
  match a with
  | ⟨0, _⟩ =>
    show win0_4.index _ (0 : Fin 2) * 512 ≤ (i 0).val ∧ (i 0).val < win0_4.index _ (0 : Fin 2) * 512 + 512
    rw [e0]
    show (i 0).val / 512 * 512 ≤ (i 0).val ∧ (i 0).val < (i 0).val / 512 * 512 + 512
    omega
  | ⟨1, _⟩ =>
    show win0_4.index _ (1 : Fin 2) * 1024 ≤ (i 1).val ∧ (i 1).val < win0_4.index _ (1 : Fin 2) * 1024 + 1024
    rw [e1]; omega

/-- The result array after the run. -/
theorem final (c : Dev nD) : (dats m 0 c).arrAt 4 cfg0.N = result m c :=
  (dats m 0 c).arrAt_eq_of_cover 4 (result m c) (fun t _ => flushed_eq m c t) cover

/-- The kernel's run: the result array ends at `result`, the arguments as they were. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩)
    (Cert.KernelIdeal.Value.run_blocks m ρ)

end Cert.Langevin.Final

end
-- ==== Proof.lean ====
/-
  One Euler–Maruyama step of 65536 rows of 1024 Kuramoto oscillators: the tiled kernel against the plain reference.

  Both programs compute, for phases `θ`, noise `n`, frequencies `ω`, couplings `K` and the step `d` (one f32 constant, the
  same word in both programs, also the noise's scale),
    `θ + d · (ω + (cos θ · (sin θ · Kᵀ) − sin θ · (cos θ · Kᵀ))) + d · n`.
  The reference scales the drift once. The kernel scales the couplings and the frequencies by `d` before the launch, and per
  block of 512 rows stacks `sin θ` over `cos θ`, multiplies the stack by the scaled transposed couplings in one product and
  cuts the product in two. At exact arithmetic the two agree by distributivity of the product over the sums, which on the
  extended reals needs the phases, frequencies, couplings and step FINITE: that is what the precondition gives (sine and
  cosine of a finite phase are finite).

  The modules: `Law` (the algebra, over the reals and lifted), `Spec` (the two arrangements as whole-array functions and
  their equality for finite inputs), `Finite` (the precondition read back), `RefRead` (the reference is the plain arrangement),
  `Payload`, `BlockEntry`, `Windows`, `Final` (the kernel's result array is the scaled arrangement). The three frames are the
  generated ones; the idealization rewrote nothing, so `preserves` is trivial.
-/
import proofs.«150343_j26603027431567_2_alg».proof.Defs
import proofs.«150343_j26603027431567_2_alg».proof.Proof.Gen.Kernel
import proofs.«150343_j26603027431567_2_alg».proof.Proof.Gen.Kernel.Skeleton
import proofs.«150343_j26603027431567_2_alg».proof.Proof.Gen.Kernel.Launch
import proofs.«150343_j26603027431567_2_alg».proof.Proof.Gen.Kernel.Points
import proofs.«150343_j26603027431567_2_alg».proof.Proof.Gen.Kernel.Frame
import proofs.«150343_j26603027431567_2_alg».proof.Proof.Gen.KernelIdeal
import proofs.«150343_j26603027431567_2_alg».proof.Proof.Gen.KernelIdeal.Skeleton
import proofs.«150343_j26603027431567_2_alg».proof.Proof.Gen.KernelIdeal.Launch
import proofs.«150343_j26603027431567_2_alg».proof.Proof.Gen.KernelIdeal.Points
import proofs.«150343_j26603027431567_2_alg».proof.Proof.Gen.KernelIdeal.Frame
import proofs.«150343_j26603027431567_2_alg».proof.Proof.Gen.ReferenceIdeal
import proofs.«150343_j26603027431567_2_alg».proof.Proof.Gen.KernelIdeal.Value
import proofs.«150343_j26603027431567_2_alg».proof.Proof.Gen.ReferenceIdeal.Run
import proofs.«150343_j26603027431567_2_alg».proof.Proof.Gen.ReferenceIdeal.Read
import proofs.«150343_j26603027431567_2_alg».proof.Proof.Gen.Pre_finite_inputs
import proofs.«150343_j26603027431567_2_alg».proof.Proof.Finite
import proofs.«150343_j26603027431567_2_alg».proof.Proof.RefRead
import proofs.«150343_j26603027431567_2_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On finite inputs the kernel's result array (the scaled arrangement) and the reference's (the plain arrangement) are
    equal entry by entry. -/
theorem algebraic : Cert.algebraic_KernelIdeal_ReferenceIdeal := by
  intro m ρ m' ρ' hpre hagree
  refine ⟨fun c => Cert.Langevin.Final.result m c, Cert.Langevin.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  obtain ⟨f0, -, f2, f3⟩ := Cert.Langevin.Finite.finite_of_pre _ _ _ _ (hpre c)
  rw [Cert.ReferenceIdeal.Read.val_main_v15_eq, Cert.Langevin.RefValue.reference_eq_plainForm, h0, h1, h2, h3]
  exact (Cert.Langevin.scaledForm_eq_plainForm _ _ _ _ _ Cert.Langevin.step_real f0 f2 f3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
